-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048 : Shape := ⟨2, ![4, 2048]⟩
abbrev S8 : Shape := ⟨1, ![8]⟩
abbrev S8x1024x4096 : Shape := ⟨3, ![8, 1024, 4096]⟩
abbrev S8x4096x1024 : Shape := ⟨3, ![8, 4096, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn_part1 {F : FTy → Type} [FloatOps F] (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  main_v18

def fn {F : FTy → Type} [FloatOps F] (main_arg0 : FVec F S4x2048x1024 .f32) (main_arg1 : IVec S4x2048 32) (main_arg2 : IVec S8 32) (main_arg3 : IVec S8 32) (main_arg4 : FVec F S8x1024x4096 .f32) (main_arg5 : FVec F S8x1024x4096 .f32) (main_arg6 : FVec F S8x4096x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S8x1024x4096 .f32 := Host.absf main_arg4
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x1024x4096 .f32 := Host.absf main_arg5
  let main_cst_2 : FVec F S_ .f32 := constant S_ .f32 0x7F800000#32
  let main_v10 : FVec F S8x1024x4096 .f32 := broadcastInDim S8x1024x4096 ![] bcast_S_S8x1024x4096 main_cst_2
  let main_v11 : IVec S8x1024x4096 1 := cmpf .olt main_v9 main_v10
  let main_c_3 : IVec S_ 1 := constantI S_ 1 1#1
  let main_v12 : IVec S_ 1 := (fun x v => Host.reduce IntOp.andi x v reducesTo_S8x1024x4096_S_d0_1_2 h_S_) main_v11 main_c_3
  let main_v13 : IVec S_ 1 := andi main_v8 main_v12
  let main_v14 : FVec F S8x4096x1024 .f32 := Host.absf main_arg6
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_v13 main_v16
-- ==== Kernel.lean ====
abbrev S4x2048x1024 : Shape := ⟨3, ![4, 2048, 1024]⟩
abbrev S4x2048 : Shape := ⟨2, ![4, 2048]⟩
abbrev S8 : Shape := ⟨1, ![8]⟩
abbrev S8x1024x4096 : Shape := ⟨3, ![8, 1024, 4096]⟩
abbrev S8x4096x1024 : Shape := ⟨3, ![8, 4096, 1024]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S8x1024x1024 : Shape := ⟨3, ![8, 1024, 1024]⟩
abbrev S1x256x1024 : Shape := ⟨3, ![1, 256, 1024]⟩
abbrev S1x1024x1024 : Shape := ⟨3, ![1, 1024, 1024]⟩
abbrev S256x1024 : Shape := ⟨2, ![256, 1024]⟩
abbrev S1024x1024 : Shape := ⟨2, ![1024, 1024]⟩

abbrev nBuf : Space → Nat
  | .hbm => 40
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S4x2048, .i32⟩
  | .hbm, ⟨2, _⟩ => ⟨S8, .i32⟩
  | .hbm, ⟨3, _⟩ => ⟨S8, .i32⟩
  | .hbm, ⟨4, _⟩ => ⟨S8x1024x4096, .f32⟩
  | .hbm, ⟨5, _⟩ => ⟨S8x1024x4096, .f32⟩
  | .hbm, ⟨6, _⟩ => ⟨S8x4096x1024, .f32⟩
  | .hbm, ⟨7, _⟩ => ⟨S8192x1024, .f32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S8192x1, .i32⟩
  | .hbm, ⟨20, _⟩ => ⟨S8192x1024, .f32⟩
  | .hbm, ⟨21, _⟩ => ⟨S8x1024x1024, .f32⟩
  | .hbm, ⟨22, _⟩ => ⟨S8x1024x1024, .bf16⟩
  | .hbm, ⟨23, _⟩ => ⟨S8x1024x4096, .bf16⟩
  | .hbm, ⟨24, _⟩ => ⟨S8x1024x4096, .bf16⟩
  | .hbm, ⟨25, _⟩ => ⟨S8x4096x1024, .bf16⟩
  | .hbm, ⟨26, _⟩ => ⟨S8x1024x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192, .i32⟩
  | .hbm, ⟨37, _⟩ => ⟨S8192x1, .i32⟩
  | .hbm, ⟨38, _⟩ => ⟨S8192x1024, .f32⟩
  | .hbm, ⟨39, _⟩ => ⟨S4x2048x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x256x1024, .f32⟩
  | .local _ .vmem, ⟨9, _⟩ => ⟨S1x256x1024, .f32⟩
  | .local _ .vmem, ⟨10, _⟩ => ⟨S256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1_0 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x1024_S8192x1024 : S4x2048x1024.ShapeCasts S8192x1024
  shapeCasts_S4x2048_S8192 : S4x2048.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  shapeCasts_S8192x1024_S8x1024x1024 : S8192x1024.ShapeCasts S8x1024x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S256x1024_S1x256x1024 : S256x1024.ShapeCasts S1x256x1024
  shapeCasts_S8x1024x1024_S8192x1024 : S8x1024x1024.ShapeCasts S8192x1024
  bcast_S_S8192x1024 : S_.BroadcastsInDim S8192x1024 (![] : Fin 0 → Fin S8192x1024.rank)
  shapeCasts_S8192x1024_S4x2048x1024 : S8192x1024.ShapeCasts S4x2048x1024
  gather_S8192x1024_S8192x1_S8192x1024_1_0_n_n_0_1_11024_wf : GatherDims.WF S8192x1024 S8192x1 S8192x1024 [1] [0] [] [0] [] 1 ![1, 1024]
  dot_S256x1024_S1024x1024_S256x1024_1_0_0_1_n_n_wf : DotDims.WF S256x1024 S1024x1024 S256x1024 [1] [0] [0] [1] [] []
  scatter_S8192x1024_S8192x1_S8192x1024_1_0_0_1_wf : ScatterDims.WF S8192x1024 S8192x1 S8192x1024 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x1024x1024.size a
  hwx0_0 : ∀ i : grid0.Coords, EltTy.bits .bf16 = 32 ∨ (Rect.block (s := S8x1024x1024) S1x256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x4096.size a
  hwx0_1 : ∀ i : grid0.Coords, EltTy.bits .bf16 = 32 ∨ (Rect.block (s := S8x1024x4096) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x1024x4096.size a
  hwx0_2 : ∀ i : grid0.Coords, EltTy.bits .bf16 = 32 ∨ (Rect.block (s := S8x1024x4096) S1x1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x4096x1024.size a
  hwx0_3 : ∀ i : grid0.Coords, EltTy.bits .bf16 = 32 ∨ (Rect.block (s := S8x4096x1024) S1x1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S8x1024x1024.size a
  hwx0_4 : ∀ i : grid0.Coords, EltTy.bits .f32 = 32 ∨ (Rect.block (s := S8x1024x1024) S1x256x1024.size (cc0_transform_4 i) (hinb0_4 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S8192x1024_S8192x1_S8192x1024_1_0_n_n_0_1_11024 : GatherDims S8192x1024 S8192x1 S8192x1024 where
  offsetDims := [1]
  collapsedSliceDims := [0]
  operandBatchingDims := []
  startIndicesBatchingDims := []
  startIndexMap := [0]
  indexVectorDim := 1
  sliceSizes := ![1, 1024]
  wf := gather_S8192x1024_S8192x1_S8192x1024_1_0_n_n_0_1_11024_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def scatter_S8192x1024_S8192x1_S8192x1024_1_0_0_1 : ScatterDims S8192x1024 S8192x1 S8192x1024 where
  updateWindowDims := [1]
  insertedWindowDims := [0]
  scatterDimsToOperandDims := [0]
  indexVectorDim := 1
  wf := scatter_S8192x1024_S8192x1_S8192x1024_1_0_0_1_wf

abbrev win0_0 : Pipeline.Window sig grid0 :=
  Pipeline.Window.ofSpec (Memref.whole main_v11) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S4x2048 : Shape := ⟨2, ![4, 2048]⟩
abbrev S8 : Shape := ⟨1, ![8]⟩
abbrev S8x1024x4096 : Shape := ⟨3, ![8, 1024, 4096]⟩
abbrev S8x4096x1024 : Shape := ⟨3, ![8, 4096, 1024]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S8x1024x1024 : Shape := ⟨3, ![8, 1024, 1024]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048, .i32⟩
  | .hbm, ⟨2, _⟩ => ⟨S8, .i32⟩
  | .hbm, ⟨3, _⟩ => ⟨S8, .i32⟩
  | .hbm, ⟨4, _⟩ => ⟨S8x1024x4096, .f32⟩
  | .hbm, ⟨5, _⟩ => ⟨S8x1024x4096, .f32⟩
  | .hbm, ⟨6, _⟩ => ⟨S8x4096x1024, .f32⟩
  | .hbm, ⟨7, _⟩ => ⟨S8192x1024, .f32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S8192x1, .i32⟩
  | .hbm, ⟨20, _⟩ => ⟨S8192x1024, .f32⟩
  | .hbm, ⟨21, _⟩ => ⟨S8x1024x1024, .f32⟩
  | .hbm, ⟨22, _⟩ => ⟨S8x1024x4096, .f32⟩
  | .hbm, ⟨23, _⟩ => ⟨S8x1024x4096, .f32⟩
  | .hbm, ⟨24, _⟩ => ⟨S8x1024x4096, .f32⟩
  | .hbm, ⟨25, _⟩ => ⟨S8x1024x4096, .f32⟩
  | .hbm, ⟨26, _⟩ => ⟨S_, .f32⟩
  | .hbm, ⟨27, _⟩ => ⟨S8x1024x4096, .f32⟩
  | .hbm, ⟨28, _⟩ => ⟨S8x1024x4096, .f32⟩
  | .hbm, ⟨29, _⟩ => ⟨S_, .f32⟩
  | .hbm, ⟨30, _⟩ => ⟨S8x1024x4096, .f32⟩
  | .hbm, ⟨31, _⟩ => ⟨S8x1024x4096, .f32⟩
  | .hbm, ⟨32, _⟩ => ⟨S8x1024x4096, .f32⟩
  | .hbm, ⟨33, _⟩ => ⟨S8x1024x4096, .f32⟩
  | .hbm, ⟨34, _⟩ => ⟨S8x1024x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S8192x1, .i32⟩
  | .hbm, ⟨46, _⟩ => ⟨S8192x1024, .f32⟩
  | .hbm, ⟨47, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1_0 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_c_1 : Ref sig .tc := ⟨.hbm, 38, rfl⟩
abbrev main_v18 : Ref sig .tc := ⟨.hbm, 39, rfl⟩
abbrev main_v19 : Ref sig .tc := ⟨.hbm, 40, rfl⟩
abbrev main_c_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩

abbrev nD : Nat := 1
abbrev τ : Topo := Topo.v7x

variable {F : FTy → Type} [FloatOps F]

class Facts₀ : Prop where
  shapeCasts_S4x2048x1024_S8192x1024 : S4x2048x1024.ShapeCasts S8192x1024
  shapeCasts_S4x2048_S8192 : S4x2048.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  shapeCasts_S8192x1024_S8x1024x1024 : S8192x1024.ShapeCasts S8x1024x1024
  bcast_S_S8x1024x4096 : S_.BroadcastsInDim S8x1024x4096 (![] : Fin 0 → Fin S8x1024x4096.rank)
  bcast_S_S8192x1024 : S_.BroadcastsInDim S8192x1024 (![] : Fin 0 → Fin S8192x1024.rank)
  shapeCasts_S8x1024x1024_S8192x1024 : S8x1024x1024.ShapeCasts S8192x1024
  shapeCasts_S8192x1024_S4x2048x1024 : S8192x1024.ShapeCasts S4x2048x1024
  gather_S8192x1024_S8192x1_S8192x1024_1_0_n_n_0_1_11024_wf : GatherDims.WF S8192x1024 S8192x1 S8192x1024 [1] [0] [] [0] [] 1 ![1, 1024]
  dot_S8x1024x1024_S8x1024x4096_S8x1024x4096_2_1_1_2_0_0_wf : DotDims.WF S8x1024x1024 S8x1024x4096 S8x1024x4096 [2] [1] [1] [2] [0] [0]
  dot_S8x1024x4096_S8x4096x1024_S8x1024x1024_2_1_1_2_0_0_wf : DotDims.WF S8x1024x4096 S8x4096x1024 S8x1024x1024 [2] [1] [1] [2] [0] [0]
  scatter_S8192x1024_S8192x1_S8192x1024_1_0_0_1_wf : ScatterDims.WF S8192x1024 S8192x1 S8192x1024 [1] [0] [0] 1

variable [Facts₀]

def comparator_i32_i32_d0 : BitVec 32 × BitVec 32 → BitVec 32 × BitVec 32 → BitVec 1 :=
  fun l r =>
    let v2 := IntOp.cmpi .slt l.1 r.1
    v2
def gather_S8192x1024_S8192x1_S8192x1024_1_0_n_n_0_1_11024 : GatherDims S8192x1024 S8192x1 S8192x1024 where
  offsetDims := [1]
  collapsedSliceDims := [0]
  operandBatchingDims := []
  startIndicesBatchingDims := []
  startIndexMap := [0]
  indexVectorDim := 1
  sliceSizes := ![1, 1024]
  wf := gather_S8192x1024_S8192x1_S8192x1024_1_0_n_n_0_1_11024_wf
def dot_S8x1024x1024_S8x1024x4096_S8x1024x4096_2_1_1_2_0_0 : DotDims S8x1024x1024 S8x1024x4096 S8x1024x4096 where
  lhsContracting := [2]
  rhsContracting := [1]
  lhsNonContracting := [1]
  rhsNonContracting := [2]
  lhsBatch := [0]
  rhsBatch := [0]
  wf := dot_S8x1024x1024_S8x1024x4096_S8x1024x4096_2_1_1_2_0_0_wf
def dot_S8x1024x4096_S8x4096x1024_S8x1024x1024_2_1_1_2_0_0 : DotDims S8x1024x4096 S8x4096x1024 S8x1024x1024 where
  lhsContracting := [2]
  rhsContracting := [1]
  lhsNonContracting := [1]
  rhsNonContracting := [2]
  lhsBatch := [0]
  rhsBatch := [0]
  wf := dot_S8x1024x4096_S8x4096x1024_S8x1024x1024_2_1_1_2_0_0_wf
def scatter_S8192x1024_S8192x1_S8192x1024_1_0_0_1 : ScatterDims S8192x1024 S8192x1 S8192x1024 where
  updateWindowDims := [1]
  insertedWindowDims := [0]
  scatterDimsToOperandDims := [0]
  indexVectorDim := 1
  wf := scatter_S8192x1024_S8192x1_S8192x1024_1_0_0_1_wf

class Facts : Prop extends Facts₀ where

variable [Facts]
-- ==== Proof.KernelPieces.lean ====
/-
  What one grid step leaves behind, as values.

  The kernel keeps a [256, 1024] accumulator between steps. At the first slab of a row block it clears the accumulator,
  adds the slab's contribution and copies the accumulator to the output block; at a later slab it adds the slab's
  contribution to what the step before left and copies again. Read through the stores that cover each buffer whole:

      first slab : accumulator = step(blocks, 0),    output block = that with a unit axis in front
      later slab : accumulator = step(blocks, acc),  output block = that with a unit axis in front

  where step is the kernel's one arithmetic expression of its four loaded blocks and the accumulator it reads.
-/
import proofs.«159194_j62105227100756_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First slab: the accumulator ends at the step taken from the cleared accumulator. -/
theorem acc_first (c : Dev nD) (i : grid0.Coords) (arg3 : Memref sig .tc .vmem S1x256x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x256x1024 .f32) (harg7 : arg7.IsWhole) (arg8 : Memref sig .tc .vmem S256x1024 .f32) (harg8 : arg8.IsWhole) (hc0 : cond0_0 i)
    (x0 : Vec F S1x256x1024 .bf16) (x1 : Vec F S1x1024x1024 .bf16) (x2 : Vec F S1x1024x1024 .bf16) (x3 : Vec F S1x1024x1024 .bf16) :
    sout0_A_0 c i arg3 harg3 arg4 harg4 arg5 harg5 arg6 harg6 arg7 harg7 arg8 harg8 hc0 x0 x1 x2 x3 = k0_pay2 x0 x1 x2 x3 k0_pay1 := by
  unfold sout0_A_0
  rw [View.read_writes_eq_canon _ _ _ (scover0_A_0 c i arg3 harg3 arg4 harg4 arg5 harg5 arg6 harg6 arg7 harg7 arg8 harg8 hc0 x0 x1 x2 x3)]
  unfold kernelRun0_A
  dsimp only
  sl_unfold_words
  rw [View.canon_cons_unit_zero (S := S256x1024) hz2]
  simp only [View.readCov_cons_toLoadRect, View.readAt_eq_ld, harg3.read_unread, harg4.read_unread, harg5.read_unread, harg6.read_unread, harg8.read_unread, View.ld_unit_zero (S := S1x256x1024) hz3, View.ld_unit_zero (S := S1x1024x1024) hz3, View.ld_unit_zero (S := S256x1024) hz2]

/-- First slab: the output block is the accumulator's new contents, a unit axis in front. -/
theorem out_first (c : Dev nD) (i : grid0.Coords) (arg3 : Memref sig .tc .vmem S1x256x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x256x1024 .f32) (harg7 : arg7.IsWhole) (arg8 : Memref sig .tc .vmem S256x1024 .f32) (harg8 : arg8.IsWhole) (hc0 : cond0_0 i)
    (x0 : Vec F S1x256x1024 .bf16) (x1 : Vec F S1x1024x1024 .bf16) (x2 : Vec F S1x1024x1024 .bf16) (x3 : Vec F S1x1024x1024 .bf16) :
    out0_A_4 c i arg3 harg3 arg4 harg4 arg5 harg5 arg6 harg6 arg7 harg7 arg8 harg8 hc0 x0 x1 x2 x3 = k0_pay3 (k0_pay2 x0 x1 x2 x3 k0_pay1) := by
  unfold out0_A_4
  rw [View.read_writes_eq_canon _ _ _ (cover0_A_4 c i arg3 harg3 arg4 harg4 arg5 harg5 arg6 harg6 arg7 harg7 arg8 harg8 hc0 x0 x1 x2 x3)]
  unfold kernelRun0_A
  dsimp only
  sl_unfold_words
  rw [View.canon_unit_zero (S := S1x256x1024) hz3]
  simp only [View.readCov_cons_toLoadRect, View.readAt_eq_ld, harg3.read_unread, harg4.read_unread, harg5.read_unread, harg6.read_unread, harg8.read_unread, View.ld_unit_zero (S := S1x256x1024) hz3, View.ld_unit_zero (S := S1x1024x1024) hz3, View.ld_unit_zero (S := S256x1024) hz2]

/-- Later slab: the accumulator ends at the step taken from what it held. -/
theorem acc_later (c : Dev nD) (i : grid0.Coords) (arg3 : Memref sig .tc .vmem S1x256x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x256x1024 .f32) (harg7 : arg7.IsWhole) (arg8 : Memref sig .tc .vmem S256x1024 .f32) (harg8 : arg8.IsWhole) (hc0 : ¬cond0_0 i)
    (x0 : Vec F S1x256x1024 .bf16) (x1 : Vec F S1x1024x1024 .bf16) (x2 : Vec F S1x1024x1024 .bf16) (x3 : Vec F S1x1024x1024 .bf16) (xs0 : Vec F S256x1024 .f32) :
    sout0_B_0 c i arg3 harg3 arg4 harg4 arg5 harg5 arg6 harg6 arg7 harg7 arg8 harg8 hc0 x0 x1 x2 x3 xs0 = k0_pay2 x0 x1 x2 x3 xs0 := by
  unfold sout0_B_0
  rw [View.read_writes_eq_canon _ _ _ (scover0_B_0 c i arg3 harg3 arg4 harg4 arg5 harg5 arg6 harg6 arg7 harg7 arg8 harg8 hc0 x0 x1 x2 x3 xs0)]
  unfold kernelRun0_B
  dsimp only
  sl_unfold_words
  rw [View.canon_unit_zero (S := S256x1024) hz2]
  simp only [View.readCov_cons_toLoadRect, View.readAt_eq_ld, harg3.read_unread, harg4.read_unread, harg5.read_unread, harg6.read_unread, harg8.read_unread, View.ld_unit_zero (S := S1x256x1024) hz3, View.ld_unit_zero (S := S1x1024x1024) hz3, View.ld_unit_zero (S := S256x1024) hz2]

/-- Later slab: the output block likewise. -/
theorem out_later (c : Dev nD) (i : grid0.Coords) (arg3 : Memref sig .tc .vmem S1x256x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x256x1024 .f32) (harg7 : arg7.IsWhole) (arg8 : Memref sig .tc .vmem S256x1024 .f32) (harg8 : arg8.IsWhole) (hc0 : ¬cond0_0 i)
    (x0 : Vec F S1x256x1024 .bf16) (x1 : Vec F S1x1024x1024 .bf16) (x2 : Vec F S1x1024x1024 .bf16) (x3 : Vec F S1x1024x1024 .bf16) (xs0 : Vec F S256x1024 .f32) :
    out0_B_4 c i arg3 harg3 arg4 harg4 arg5 harg5 arg6 harg6 arg7 harg7 arg8 harg8 hc0 x0 x1 x2 x3 xs0 = k0_pay3 (k0_pay2 x0 x1 x2 x3 xs0) := by
  unfold out0_B_4
  rw [View.read_writes_eq_canon _ _ _ (cover0_B_4 c i arg3 harg3 arg4 harg4 arg5 harg5 arg6 harg6 arg7 harg7 arg8 harg8 hc0 x0 x1 x2 x3 xs0)]
  unfold kernelRun0_B
  dsimp only
  sl_unfold_words
  rw [View.canon_unit_zero (S := S1x256x1024) hz3]
  simp only [View.readCov_cons_toLoadRect, View.readAt_eq_ld, harg3.read_unread, harg4.read_unread, harg5.read_unread, harg6.read_unread, harg8.read_unread, View.ld_unit_zero (S := S1x256x1024) hz3, View.ld_unit_zero (S := S1x1024x1024) hz3, View.ld_unit_zero (S := S256x1024) hz2]

end Cert.KernelIdeal.Pieces

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.KernelBlock.lean ====
/-
  One grid step of the kernel, read entry by entry over the extended reals.

  A step sees one row block x : [1, 256, 1024] of one expert's tokens, one slab of 1024 hidden columns of that expert's
  gate and up weights wg, wu : [1, 1024, 1024], and the matching 1024 rows of its down weights wd : [1, 1024, 1024]. It
  forms gate = x · wg and up = x · wu (each entry a sum over the 1024 input features), the gated activation
  (gate · σ(gate)) · up, multiplies it by wd (a sum over the slab's 1024 hidden columns) and adds the result to the
  accumulator it is given. The change to bf16 in between is the identity on extended reals.
-/
import proofs.«159194_j62105227100756_1_alg».proof.Proof.Gen.KernelIdeal.Skeleton
import proofs.«159194_j62105227100756_1_alg».proof.Proof.LibDotInner
import Idealize.ShloMosaic.Lib.ValueLayout
import Idealize.ShloMosaic.Lib.Pipeline.Value

noncomputable section

open scoped BigOperators

namespace Cert.KernelIdeal.BlockValue

open Cert.KernelIdeal Cert.KernelIdeal.Gen Idealize.ShloMosaic Idealize.ShloMosaic.ValueIdx

/-- A row block against a weight slab: Σ_h x[0,r,h] · w[0,h,k]. -/
def bproj (x : FVec Ideal S1x256x1024 .bf16) (w : FVec Ideal S1x1024x1024 .bf16) (r : Fin 256) (k : Fin 1024) : EReal :=
  ∑ h : Fin 1024, x (ix3 (0 : Fin 1) r h) * w (ix3 (0 : Fin 1) h k)

/-- The step's gated activation at row r and slab column k. -/
def bhid (x : FVec Ideal S1x256x1024 .bf16) (wg wu : FVec Ideal S1x1024x1024 .bf16) (r : Fin 256) (k : Fin 1024) : EReal :=
  (bproj x wg r k * Ideal.logistic (bproj x wg r k)) * bproj x wu r k

/-- The step's contribution at (r, h): Σ_k bhid[r,k] · wd[0,k,h]. -/
def bstep (x : FVec Ideal S1x256x1024 .bf16) (wg wu wd : FVec Ideal S1x1024x1024 .bf16) (r : Fin 256) (h : Fin 1024) : EReal :=
  ∑ k : Fin 1024, bhid x wg wu r k * wd (ix3 (0 : Fin 1) k h)

/-! The matrix unit's dimension numbers: rows of the left operand, columns of the right, one contracted axis. -/

theorem dd_l0 (j : S256x1024.Idx) (q : dot_S256x1024_S1024x1024_S256x1024_1_0_0_1_n_n.contr.Idx) :
    (dot_S256x1024_S1024x1024_S256x1024_1_0_0_1_n_n.lhsIdx j q 0).val = (j 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl

theorem dd_l1 (j : S256x1024.Idx) (q : dot_S256x1024_S1024x1024_S256x1024_1_0_0_1_n_n.contr.Idx) :
    (dot_S256x1024_S1024x1024_S256x1024_1_0_0_1_n_n.lhsIdx j q 1).val = (q ⟨0, by decide⟩).val :=
  dot_S256x1024_S1024x1024_S256x1024_1_0_0_1_n_n.lhsIdx_val_of_single rfl j q

theorem dd_r0 (j : S256x1024.Idx) (q : dot_S256x1024_S1024x1024_S256x1024_1_0_0_1_n_n.contr.Idx) :
    (dot_S256x1024_S1024x1024_S256x1024_1_0_0_1_n_n.rhsIdx j q 0).val = (q ⟨0, by decide⟩).val :=
  dot_S256x1024_S1024x1024_S256x1024_1_0_0_1_n_n.rhsIdx_val_of_single rfl j q

theorem dd_r1 (j : S256x1024.Idx) (q : dot_S256x1024_S1024x1024_S256x1024_1_0_0_1_n_n.contr.Idx) :
    (dot_S256x1024_S1024x1024_S256x1024_1_0_0_1_n_n.rhsIdx j q 1).val = (j 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- A projection of the step: the row block, with its unit axis dropped, against a weight slab with its unit axis dropped,
    from the zero accumulator. -/
theorem mm_apply (a : FVec Ideal S1x256x1024 .bf16) (w : FVec Ideal S1x1024x1024 .bf16) (r : Fin 256) (k : Fin 1024) :
    matmul (F := Ideal) dot_S256x1024_S1024x1024_S256x1024_1_0_0_1_n_n none
        (shapeCast S256x1024 a shapeCasts_S1x256x1024_S256x1024) (shapeCast S1024x1024 w shapeCasts_S1x1024x1024_S1024x1024)
        (constant S256x1024 .f32 0x00000000#32) (ix2 r k) = bproj a w r k := by
  refine (DotInner.matmul_zero_apply dot_S256x1024_S1024x1024_S256x1024_1_0_0_1_n_n rfl rfl dd_l0 dd_l1 dd_r0 dd_r1 none _ _ r k).trans ?_
  unfold bproj
  exact Finset.sum_congr rfl fun h _ =>
    congrArg₂ (· * ·) (shapeCast_1ab_ab_apply a shapeCasts_S1x256x1024_S256x1024 r h)
      (shapeCast_1ab_ab_apply w shapeCasts_S1x1024x1024_S1024x1024 h k)

/-- THE STEP: the accumulator's new contents at (r, h) are its old contents plus the step's contribution. -/
theorem pay2_apply (x : FVec Ideal S1x256x1024 .bf16) (wg wu wd : FVec Ideal S1x1024x1024 .bf16)
    (acc : FVec Ideal S256x1024 .f32) (r : Fin 256) (h : Fin 1024) :
    k0_pay2 (F := Ideal) x wg wu wd acc (ix2 r h) = acc (ix2 r h) + bstep x wg wu wd r h := by
  unfold k0_pay2
  refine (congrFun (shapeCast_self _ _) (ix2 r h)).trans ?_
  refine congrArg (acc (ix2 r h) + ·) ?_
  refine (DotInner.matmul_zero_apply dot_S256x1024_S1024x1024_S256x1024_1_0_0_1_n_n rfl rfl dd_l0 dd_l1 dd_r0 dd_r1 none _ _ r h).trans ?_
  unfold bstep bhid
  refine Finset.sum_congr rfl fun k _ => ?_
  exact congrArg₂ (· * ·)
    (congrArg₂ (· * ·) (congrArg₂ (· * ·) (mm_apply x wg r k) (congrArg Ideal.logistic (mm_apply x wg r k))) (mm_apply x wu r k))
    (shapeCast_1ab_ab_apply wd shapeCasts_S1x1024x1024_S1024x1024 k h)

/-- The reset stores zeros. -/
theorem pay1_apply (j : S256x1024.Idx) : k0_pay1 (F := Ideal) j = 0 := by
  unfold k0_pay1
  refine (congrFun (shapeCast_self _ _) j).trans ?_
  exact Ideal.ofBits_zero_f32

/-- The output block is the accumulator with a unit axis in front. -/
theorem pay3_apply (acc : FVec Ideal S256x1024 .f32) (u : Fin 1) (r : Fin 256) (h : Fin 1024) :
    k0_pay3 (F := Ideal) acc (ix3 u r h) = acc (ix2 r h) := by
  unfold k0_pay3
  exact shapeCast_ab_1ab_apply acc shapeCasts_S256x1024_S1x256x1024 u r h

end Cert.KernelIdeal.BlockValue

end
-- ==== Proof.Spec.lean ====
/-
  The grouped SwiGLU block as ONE function of its four arrays, over the extended reals.

  Tokens are already grouped: X[e, g, :] is token g of expert e (8 experts, 1024 tokens each, width 1024). With
  per-expert weights Wg, Wu : [8, 1024, 4096] and Wd : [8, 4096, 1024],

      gate[e,g,k] = Σ_h X[e,g,h] · Wg[e,h,k]        up[e,g,k] = Σ_h X[e,g,h] · Wu[e,h,k]
      hid[e,g,k]  = (gate · σ(gate)) · up            σ(x) = 1 / (1 + e^(-x))
      Y[e,g,h]    = Σ_k hid[e,g,k] · Wd[e,k,h]       (k over all 4096 hidden columns)

  and the same Y accumulated over FOUR slabs of 1024 hidden columns, from zero, slab after slab: addition of extended
  reals is commutative and associative, so the slab-wise sum is the whole sum, whatever the entries are (no finiteness
  is used).
-/
import Idealize.ShloMosaic.PureOps.Ideal
import Idealize.ShloMosaic.PureOps.Ideal.Laws
import Idealize.ShloMosaic.Lib.ValueIdx

noncomputable section

open scoped BigOperators

namespace Cert.Moe

open Idealize.ShloMosaic Idealize.ShloMosaic.ValueIdx

/-- The grouped tokens' shape [8, 1024, 1024] (also the result's). -/
abbrev SX : Shape := ⟨3, ![8, 1024, 1024]⟩
/-- The up- and gate-projection weights' shape [8, 1024, 4096]. -/
abbrev SW : Shape := ⟨3, ![8, 1024, 4096]⟩
/-- The down-projection weights' shape [8, 4096, 1024]. -/
abbrev SD : Shape := ⟨3, ![8, 4096, 1024]⟩

/-- One projection entry: Σ_h X[e,g,h] · W[e,h,k]. -/
def proj (X : SX.Idx → EReal) (W : SW.Idx → EReal) (e : Fin 8) (g : Fin 1024) (k : Fin 4096) : EReal :=
  ∑ h : Fin 1024, X (ix3 e g h) * W (ix3 e h k)

/-- The gated hidden activation: (gate · σ(gate)) · up. -/
def hid (X : SX.Idx → EReal) (Wg Wu : SW.Idx → EReal) (e : Fin 8) (g : Fin 1024) (k : Fin 4096) : EReal :=
  (proj X Wg e g k * Ideal.logistic (proj X Wg e g k)) * proj X Wu e g k

/-- The block's result: Y[e,g,h] = Σ_k hid[e,g,k] · Wd[e,k,h]. -/
def moe (X : SX.Idx → EReal) (Wg Wu : SW.Idx → EReal) (Wd : SD.Idx → EReal) : SX.Idx → EReal :=
  fun i => ∑ k : Fin 4096, hid X Wg Wu (i 0) (i 1) k * Wd (ix3 (i 0) k (i 2))

/-- The result at explicit coordinates. -/
theorem moe_apply (X : SX.Idx → EReal) (Wg Wu : SW.Idx → EReal) (Wd : SD.Idx → EReal) (e : Fin 8) (g h : Fin 1024) :
    moe X Wg Wu Wd (ix3 e g h) = ∑ k : Fin 4096, hid X Wg Wu e g k * Wd (ix3 e k h) := rfl

/-- Hidden column `k` of slab `s` (four slabs of 1024 columns). -/
def col (s : Fin 4) (k : Fin 1024) : Fin 4096 := ⟨1024 * s.val + k.val, by have := s.isLt; have := k.isLt; omega⟩

/-- A sum over the 4096 hidden columns is the sum, slab after slab from zero, of the four slabs' sums. -/
theorem sum_slabs {M : Type*} [AddCommMonoid M] (f : Fin 4096 → M) :
    ∑ k : Fin 4096, f k
      = (((0 + ∑ k : Fin 1024, f (col 0 k)) + ∑ k : Fin 1024, f (col 1 k)) + ∑ k : Fin 1024, f (col 2 k))
          + ∑ k : Fin 1024, f (col 3 k) := by
  have e : ∑ k : Fin 4096, f k = ∑ p : Fin 4 × Fin 1024, f (col p.1 p.2) := by
    refine (Fintype.sum_equiv (finProdFinEquiv (m := 4) (n := 1024)) (fun p => f (col p.1 p.2)) f ?_).symm
    intro p
    refine congrArg f (Fin.ext ?_)
    show 1024 * p.1.val + p.2.val = p.2.val + 1024 * p.1.val
    omega
  rw [e, Fintype.sum_prod_type, Fin.sum_univ_four, zero_add]

/-- Token `r` of row block `b` (four row blocks of 256 tokens per expert). -/
def row (b : Fin 4) (r : Fin 256) : Fin 1024 := ⟨256 * b.val + r.val, by have := b.isLt; have := r.isLt; omega⟩

/-- The slab a step number falls in: steps run through the four slabs in order, again and again. -/
def slabOf (n : ℕ) : Fin 4 := ⟨n % 4, Nat.mod_lt _ (by decide)⟩

/-- One slab's share of Y[e,g,h]: the sum over the slab's 1024 hidden columns. -/
def slab (X : SX.Idx → EReal) (Wg Wu : SW.Idx → EReal) (Wd : SD.Idx → EReal) (e : Fin 8) (g h : Fin 1024) (s : Fin 4) : EReal :=
  ∑ k : Fin 1024, hid X Wg Wu e g (col s k) * Wd (ix3 e (col s k) h)

/-- The running sum after slab `j`: from zero, slab after slab. -/
def accum (X : SX.Idx → EReal) (Wg Wu : SW.Idx → EReal) (Wd : SD.Idx → EReal) (e : Fin 8) (g h : Fin 1024) : ℕ → EReal
  | 0 => 0 + slab X Wg Wu Wd e g h (slabOf 0)
  | j + 1 => accum X Wg Wu Wd e g h j + slab X Wg Wu Wd e g h (slabOf (j + 1))

/-- After the fourth slab the running sum is the whole entry. -/
theorem moe_eq_accum (X : SX.Idx → EReal) (Wg Wu : SW.Idx → EReal) (Wd : SD.Idx → EReal) (e : Fin 8) (g h : Fin 1024) :
    moe X Wg Wu Wd (ix3 e g h) = accum X Wg Wu Wd e g h 3 := by
  rw [moe_apply, sum_slabs]
  rfl

/-- The f32 word of 1.0 is the real number one. -/
theorem one_f32 : Ideal.ofBits .f32 0x3F800000#32 = 1 := IdealRules.sign_bit.ideal_onePat .f32

end Cert.Moe

end
-- ==== Proof.KernelAccum.lean ====
/-
  The accumulator over the grid.

  The grid is 8 experts × 4 row blocks × 4 slabs, walked with the slab index fastest: step n works on expert n / 16, row
  block (n / 4) mod 4 and slab n mod 4. Its four blocks are read off the arrays the region finds: rows
  256·b … 256·b + 255 of the expert's tokens, columns 1024·s … of its gate and up weights, rows 1024·s … of its down
  weights. So the step's contribution at (r, h) is slab s's share of Y[e, 256·b + r, h], and by induction over the steps
  the accumulator after step n holds the running sum of the shares of slabs 0 … n mod 4 — the whole entry after a row
  block's fourth slab.
-/
import proofs.«159194_j62105227100756_1_alg».proof.Proof.KernelPieces
import proofs.«159194_j62105227100756_1_alg».proof.Proof.KernelBlock
import proofs.«159194_j62105227100756_1_alg».proof.Proof.Spec

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx Cert.Moe Cert.KernelIdeal.BlockValue

variable (m : (ℓ : Loc nD τ sig) → Buf (Elt Ideal) ℓ)

/-- The grouped tokens and the three weight arrays as the region finds them. -/
def aX (c : Dev nD) : SX.Idx → EReal := V m c main_v11
def aWg (c : Dev nD) : SW.Idx → EReal := V m c main_v12
def aWu (c : Dev nD) : SW.Idx → EReal := V m c main_v13
def aWd (c : Dev nD) : SD.Idx → EReal := V m c main_v14

/-- The expert and the row block step `n` works on. -/
def pe (n : ℕ) : Fin 8 := ⟨n / 16 % 8, Nat.mod_lt _ (by decide)⟩
def pb (n : ℕ) : Fin 4 := ⟨n / 4 % 4, Nat.mod_lt _ (by decide)⟩

/-- The printed index maps over the grid: (expert, row block, 0), (expert, 0, slab), (expert, slab, 0). -/
theorem idx_facts : ∀ t : Fin cfg0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = 0 ∧ win0_1.index t (2 : Fin 3) = t.val % 4
    ∧ win0_2.index t (0 : Fin 3) = t.val / 16 ∧ win0_2.index t (1 : Fin 3) = 0 ∧ win0_2.index t (2 : Fin 3) = t.val % 4
    ∧ win0_3.index t (0 : Fin 3) = t.val / 16 ∧ win0_3.index t (1 : Fin 3) = t.val % 4 ∧ win0_3.index t (2 : Fin 3) = 0
    ∧ win0_4.index t (0 : Fin 3) = t.val / 16 ∧ win0_4.index t (1 : Fin 3) = t.val / 4 % 4 ∧ win0_4.index t (2 : Fin 3) = 0 :=
  (by decide +kernel : ∀ t : Fin grid0.N, _)

/-- The token block at step `t`: rows of the expert's row block. -/
theorem blkX (c : Dev nD) (t : Fin cfg0.N) (u : Fin 1) (r : Fin 256) (h : Fin 1024) :
    iblk m c 0 t (ix3 u r h) = aX m c (ix3 (pe t.val) (row (pb t.val) r) h) := by
  obtain ⟨e0, e1, e2, -⟩ := idx_facts t
  have hN : t.val < 128 := lt_of_lt_of_eq t.isLt N_0
  unfold iblk aX
  rw [View.read_apply]
  show V m c main_v11 _ = V m c main_v11 _
  refine congrArg (V m c main_v11) (funext fun a => Fin.ext ?_)
  match a with
  | ⟨0, _⟩ => show win0_0.index t (0 : Fin 3) * 1 + 1 * u.val = t.val / 16 % 8; omega
  | ⟨1, _⟩ => show win0_0.index t (1 : Fin 3) * 256 + 1 * r.val = 256 * (t.val / 4 % 4) + r.val; omega
  | ⟨2, _⟩ => show win0_0.index t (2 : Fin 3) * 1024 + 1 * h.val = h.val; omega

/-- The gate-weight block at step `t`: the slab's columns. -/
theorem blkWg (c : Dev nD) (t : Fin cfg0.N) (u : Fin 1) (h k : Fin 1024) :
    iblk m c 1 t (ix3 u h k) = aWg m c (ix3 (pe t.val) h (col (slabOf t.val) k)) := by
  obtain ⟨-, -, -, e0, e1, e2, -⟩ := idx_facts t
  have hN : t.val < 128 := lt_of_lt_of_eq t.isLt N_0
  unfold iblk aWg
  rw [View.read_apply]
  show V m c main_v12 _ = V m c main_v12 _
  refine congrArg (V m c main_v12) (funext fun a => Fin.ext ?_)
  match a with
  | ⟨0, _⟩ => show win0_1.index t (0 : Fin 3) * 1 + 1 * u.val = t.val / 16 % 8; omega
  | ⟨1, _⟩ => show win0_1.index t (1 : Fin 3) * 1024 + 1 * h.val = h.val; omega
  | ⟨2, _⟩ => show win0_1.index t (2 : Fin 3) * 1024 + 1 * k.val = 1024 * (t.val % 4) + k.val; omega

/-- The up-weight block likewise. -/
theorem blkWu (c : Dev nD) (t : Fin cfg0.N) (u : Fin 1) (h k : Fin 1024) :
    iblk m c 2 t (ix3 u h k) = aWu m c (ix3 (pe t.val) h (col (slabOf t.val) k)) := by
  obtain ⟨-, -, -, -, -, -, e0, e1, e2, -⟩ := idx_facts t
  have hN : t.val < 128 := lt_of_lt_of_eq t.isLt N_0
  unfold iblk aWu
  rw [View.read_apply]
  show V m c main_v13 _ = V m c main_v13 _
  refine congrArg (V m c main_v13) (funext fun a => Fin.ext ?_)
  match a with
  | ⟨0, _⟩ => show win0_2.index t (0 : Fin 3) * 1 + 1 * u.val = t.val / 16 % 8; omega
  | ⟨1, _⟩ => show win0_2.index t (1 : Fin 3) * 1024 + 1 * h.val = h.val; omega
  | ⟨2, _⟩ => show win0_2.index t (2 : Fin 3) * 1024 + 1 * k.val = 1024 * (t.val % 4) + k.val; omega

/-- The down-weight block at step `t`: the slab's rows. -/
theorem blkWd (c : Dev nD) (t : Fin cfg0.N) (u : Fin 1) (k h : Fin 1024) :
    iblk m c 3 t (ix3 u k h) = aWd m c (ix3 (pe t.val) (col (slabOf t.val) k) h) := by
  obtain ⟨-, -, -, -, -, -, -, -, -, e0, e1, e2, -⟩ := idx_facts t
  have hN : t.val < 128 := lt_of_lt_of_eq t.isLt N_0
  unfold iblk aWd
  rw [View.read_apply]
  show V m c main_v14 _ = V m c main_v14 _
  refine congrArg (V m c main_v14) (funext fun a => Fin.ext ?_)
  match a with
  | ⟨0, _⟩ => show win0_3.index t (0 : Fin 3) * 1 + 1 * u.val = t.val / 16 % 8; omega
  | ⟨1, _⟩ => show win0_3.index t (1 : Fin 3) * 1024 + 1 * k.val = 1024 * (t.val % 4) + k.val; omega
  | ⟨2, _⟩ => show win0_3.index t (2 : Fin 3) * 1024 + 1 * h.val = h.val; omega

/-- The step's gate projection is the specification's, at the step's expert, row and slab column. -/
theorem gate_blk (c : Dev nD) (t : Fin cfg0.N) (r : Fin 256) (k : Fin 1024) :
    bproj (iblk m c 0 t) (iblk m c 1 t) r k
      = proj (aX m c) (aWg m c) (pe t.val) (row (pb t.val) r) (col (slabOf t.val) k) := by
  unfold bproj proj
  exact Finset.sum_congr rfl fun h _ => congrArg₂ (· * ·) (blkX m c t 0 r h) (blkWg m c t 0 h k)

/-- The up projection likewise. -/
theorem up_blk (c : Dev nD) (t : Fin cfg0.N) (r : Fin 256) (k : Fin 1024) :
    bproj (iblk m c 0 t) (iblk m c 2 t) r k
      = proj (aX m c) (aWu m c) (pe t.val) (row (pb t.val) r) (col (slabOf t.val) k) := by
  unfold bproj proj
  exact Finset.sum_congr rfl fun h _ => congrArg₂ (· * ·) (blkX m c t 0 r h) (blkWu m c t 0 h k)

/-- THE STEP'S CONTRIBUTION is its slab's share of the entry. -/
theorem step_blk (c : Dev nD) (t : Fin cfg0.N) (r : Fin 256) (h : Fin 1024) :
    bstep (iblk m c 0 t) (iblk m c 1 t) (iblk m c 2 t) (iblk m c 3 t) r h
      = slab (aX m c) (aWg m c) (aWu m c) (aWd m c) (pe t.val) (row (pb t.val) r) h (slabOf t.val) := by
  unfold bstep slab bhid hid
  refine Finset.sum_congr rfl fun k _ => ?_
  exact congrArg₂ (· * ·)
    (congrArg₂ (· * ·) (congrArg₂ (· * ·) (gate_blk m c t r k) (congrArg Ideal.logistic (gate_blk m c t r k))) (up_blk m c t r k))
    (blkWd m c t 0 k h)

/-- A row block's first slab: the accumulator holds zero plus the first share. -/
theorem first_slab (c : Dev nD) (t : Fin cfg0.N) (h0 : t.val % 4 = 0) (r : Fin 256) (h : Fin 1024) :
    (outsAt0 m c t.val t.isLt).2 (ix2 r h)
      = accum (aX m c) (aWg m c) (aWu m c) (aWd m c) (pe t.val) (row (pb t.val) r) h (t.val % 4) := by
  rw [outsAt0_A m c t h0]
  dsimp only
  rw [Pieces.acc_first]
  refine (pay2_apply (iblk m c 0 t) (iblk m c 1 t) (iblk m c 2 t) (iblk m c 3 t) k0_pay1 r h).trans ?_
  rw [pay1_apply, step_blk, h0]
  have hs : slabOf t.val = slabOf 0 := Fin.ext (by show t.val % 4 = 0 % 4; omega)
  rw [hs]
  rfl

/-- A later slab: the accumulator holds what the step before left plus this slab's share. -/
theorem later_slab (c : Dev nD) (t : Fin cfg0.N) (h0 : ¬t.val % 4 = 0) (r : Fin 256) (h : Fin 1024)
    (ih : (outsAt0 m c (t.val - 1) (Nat.lt_of_le_of_lt (Nat.sub_le _ _) t.isLt)).2 (ix2 r h)
      = accum (aX m c) (aWg m c) (aWu m c) (aWd m c) (pe (t.val - 1)) (row (pb (t.val - 1)) r) h ((t.val - 1) % 4)) :
    (outsAt0 m c t.val t.isLt).2 (ix2 r h)
      = accum (aX m c) (aWg m c) (aWu m c) (aWd m c) (pe t.val) (row (pb t.val) r) h (t.val % 4) := by
  rw [outsAt0_B m c t h0]
  dsimp only
  rw [Pieces.acc_later]
  refine (pay2_apply (iblk m c 0 t) (iblk m c 1 t) (iblk m c 2 t) (iblk m c 3 t) (outsAt0 m c (t.val - 1) (Nat.lt_of_le_of_lt (Nat.sub_le _ _) t.isLt)).2 r h).trans ?_
  rw [ih, step_blk]
  have e1 : t.val % 4 = (t.val - 1) % 4 + 1 := by omega
  have e2 : pe (t.val - 1) = pe t.val := Fin.ext (by show (t.val - 1) / 16 % 8 = t.val / 16 % 8; omega)
  have e3 : pb (t.val - 1) = pb t.val := Fin.ext (by show (t.val - 1) / 4 % 4 = t.val / 4 % 4; omega)
  have e4 : slabOf t.val = slabOf ((t.val - 1) % 4 + 1) := Fin.ext (by show t.val % 4 = ((t.val - 1) % 4 + 1) % 4; omega)
  rw [e1, e2, e3, e4]
  rfl

/-- THE ACCUMULATOR after step `n` holds the running sum of the shares of slabs 0 … n mod 4 of its row block. -/
theorem acc_eq (c : Dev nD) (n : ℕ) : ∀ (hn : n < cfg0.N) (r : Fin 256) (h : Fin 1024),
    (outsAt0 m c n hn).2 (ix2 r h)
      = accum (aX m c) (aWg m c) (aWu m c) (aWd m c) (pe n) (row (pb n) r) h (n % 4) := by
  induction n with
  | zero => intro hn r h; exact first_slab m c ⟨0, hn⟩ rfl r h
  | succ n ih =>
    intro hn r h
    by_cases h0 : (n + 1) % 4 = 0
    · exact first_slab m c ⟨n + 1, hn⟩ h0 r h
    · exact later_slab m c ⟨n + 1, hn⟩ h0 r h (ih (Nat.lt_of_succ_lt hn) r h)

/-- The output block after any step is the accumulator with a unit axis in front. -/
theorem out_eq (c : Dev nD) (t : Fin cfg0.N) (u : Fin 1) (r : Fin 256) (h : Fin 1024) :
    (outsAt0 m c t.val t.isLt).1 (ix3 u r h) = (outsAt0 m c t.val t.isLt).2 (ix2 r h) := by
  by_cases h0 : t.val % 4 = 0
  · rw [outsAt0_A m c t h0]
    dsimp only
    rw [Pieces.out_first, Pieces.acc_first]
    exact pay3_apply _ u r h
  · rw [outsAt0_B m c t h0]
    dsimp only
    rw [Pieces.out_later, Pieces.acc_later]
    exact pay3_apply _ u r h

end Cert.KernelIdeal.Accum

end
-- ==== Proof.KernelRegion.lean ====
/-
  The region's result array.

  The output block of expert e and row block b is written back once, after the row block's fourth slab, when the
  accumulator holds the whole entries Y[e, 256·b + r, h]. The 32 written blocks tile the [8, 1024, 1024] result, so after
  the region the result array is the specification of the arrays the region found.
-/
import proofs.«159194_j62105227100756_1_alg».proof.Proof.KernelAccum

noncomputable section

namespace Cert.KernelIdeal.RegionValue

open Cert.KernelIdeal Cert.KernelIdeal.Gen Idealize.ShloMosaic Idealize.ShloMosaic.TcCoe Idealize.SL.Sem
open Idealize.ShloMosaic.ValueIdx Cert.Moe Cert.KernelIdeal.Accum
open Idealize.ShloMosaic.Pipeline (Dat)

variable (m : (ℓ : Loc nD τ sig) → Buf (Elt Ideal) ℓ)

/-- The specification of the arrays the region finds, as contents of the result array. -/
def Y (c : Dev nD) : Buf (Elt Ideal) ((c.tc : Thread nD τ).loc main_v15) :=
  moe (aX m c) (aWg m c) (aWu m c) (aWd m c)

/-- What a row block's last step writes back is its block of the specification. -/
theorem flushed_eq (c : Dev nD) (t : Fin cfg0.N) (hf : (cfg0.win 4).flush t = true) :
    (dats m 0 c).flushed 4 t = ((cfg0.win 4).blk t).view.read (Elt Ideal) (Y m c) := by
  have h3 : t.val % 4 = 3 := (flush0_4 t).mp hf
  obtain ⟨-, -, -, -, -, -, -, -, -, -, -, -, e0, e1, e2⟩ := idx_facts t
  have hN : t.val < 128 := lt_of_lt_of_eq t.isLt N_0
  show (cfg0.win 4).cut (grid0.coords t) ((dats m 0 c).after 4 t) = _
  rw [after0_4]
  refine funext fun (j : S1x256x1024.Idx) => ?_
  obtain ⟨u, r, h, rfl⟩ : ∃ (u : Fin 1) (r : Fin 256) (h : Fin 1024), j = ix3 u r h := ⟨j 0, j 1, j 2, eq_ix3 j⟩
  show (outsAt0 m c t.val t.isLt).1 (ix3 u r h) = Y m c (((cfg0.win 4).blk t).view.emb (ix3 u r h))
  have hemb : ((cfg0.win 4).blk t).view.emb (ix3 u r h) = ix3 (pe t.val) (row (pb t.val) r) h :=
    funext fun a => Fin.ext (by
      match a with
      | ⟨0, _⟩ => show win0_4.index t (0 : Fin 3) * 1 + 1 * u.val = t.val / 16 % 8; omega
      | ⟨1, _⟩ => show win0_4.index t (1 : Fin 3) * 256 + 1 * r.val = 256 * (t.val / 4 % 4) + r.val; omega
      | ⟨2, _⟩ => show win0_4.index t (2 : Fin 3) * 1024 + 1 * h.val = h.val; omega)
  rw [hemb, out_eq, acc_eq, h3]
  exact (moe_eq_accum _ _ _ _ _ _ _).symm

/-- Every entry of the result lies in the block some row block's last step writes back. -/
theorem cover (i : S8x1024x1024.Idx) :
    ∃ t : Fin cfg0.N, (cfg0.win 4).flush t = true ∧ i ∈ ((cfg0.win 4).blk t).view.set := by
  have h0 : (i 0).val < 8 := (i 0).isLt
  have h1 : (i 1).val < 1024 := (i 1).isLt
  have h2 : (i 2).val < 1024 := (i 2).isLt
  have hN : cfg0.N = 128 := N_0
  obtain ⟨t, ht⟩ : ∃ t : Fin cfg0.N, t.val = ((i 0).val * 4 + (i 1).val / 256) * 4 + 3 :=
    ⟨⟨((i 0).val * 4 + (i 1).val / 256) * 4 + 3, by rw [hN]; omega⟩, rfl⟩
  obtain ⟨-, -, -, -, -, -, -, -, -, -, -, -, e0, e1, e2⟩ := idx_facts t
  refine ⟨t, (flush0_4 t).mpr (by omega), ?_⟩
  show i ∈ ((View.whole main_v15).slice (win0_4.rect t)).set
  rw [View.set_slice_whole, Rect.mem_set_unit]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 256 ≤ (i 1).val ∧ (i 1).val < win0_4.index t (1 : Fin 3) * 256 + 256
    omega
  | ⟨2, _⟩ =>
    show win0_4.index t (2 : Fin 3) * 1024 ≤ (i 2).val ∧ (i 2).val < win0_4.index t (2 : Fin 3) * 1024 + 1024
    omega

/-- THE RESULT ARRAY after the region is the specification of the arrays the region found. -/
theorem final (c : Dev nD) : (dats m 0 c).arrAt 4 cfg0.N = Y m c :=
  (dats m 0 c).arrAt_eq_of_cover 4 (Y m c) (flushed_eq m c) cover

end Cert.KernelIdeal.RegionValue

end
-- ==== Proof.KernelHost.lean ====
/-
  The program around the region, and the kernel program's run.

  Before the region the program sorts the tokens' expert indices (a stable argsort), gathers the token rows in that
  order and reshapes them to [8, 1024, 1024]: the grouped tokens. The changes of the four operands to bf16 are the
  identity on extended reals. After the region it reshapes the result to [8192, 1024], scatters its rows back to the
  tokens' own positions (the same sorted indices) over zeros, and reshapes to [4, 2048, 1024]. Neither the sort nor the
  gather nor the scatter is opened: they are carried as the two functions `grouped` and `ungroup`.
-/
import proofs.«159194_j62105227100756_1_alg».proof.Proof.KernelRegion
import Idealize.ShloMosaic.Lib.StableHlo.Run

noncomputable section

namespace Cert.KernelIdeal.HostValue

open Cert.KernelIdeal Cert.KernelIdeal.Gen Idealize.ShloMosaic Idealize.ShloMosaic.TcCoe Idealize.SL.Sem
open Idealize.ShloMosaic.StableHlo Cert.Moe Cert.KernelIdeal.Accum Cert.KernelIdeal.RegionValue
open Idealize.ShloMosaic.Pipeline (Dat)

/-- The token positions in order of expert (stable): the second result of sorting (expert index, position) pairs. -/
def sorted (x1 : (⟨S4x2048, .i32⟩ : BufTy).Contents (Elt Ideal)) : (⟨S8192, .i32⟩ : BufTy).Contents (Elt Ideal) :=
  (Host.sort2 S8192 0 comparator_i32_i32_d0 (shapeCast S8192 x1 shapeCasts_S4x2048_S8192) (iotaInDim S8192 32 0)).2

/-- Positions as a column of start indices, a negative one wrapped around by 8192 (jnp's indexing rule). -/
def wrapped (s : (⟨S8192, .i32⟩ : BufTy).Contents (Elt Ideal)) : (⟨S8192x1, .i32⟩ : BufTy).Contents (Elt Ideal) :=
  broadcastInDim S8192x1 ![0] bcast_S8192_S8192x1_0
    (select (cmpi .slt s (broadcastInDim S8192 ![] bcast_S_S8192 (constantI S_ 32 0#32)))
      (addi s (broadcastInDim S8192 ![] bcast_S_S8192 (constantI S_ 32 8192#32))) s)

/-- The grouped tokens: the rows of x taken in sorted order, as [8, 1024, 1024]. -/
def grouped (x0 : (⟨S4x2048x1024, .f32⟩ : BufTy).Contents (Elt Ideal)) (x1 : (⟨S4x2048, .i32⟩ : BufTy).Contents (Elt Ideal)) :
    (⟨S8x1024x1024, .f32⟩ : BufTy).Contents (Elt Ideal) :=
  shapeCast S8x1024x1024
    (Host.gather gather_S8192x1024_S8192x1_S8192x1024_1_0_n_n_0_1_11024
      (shapeCast S8192x1024 x0 shapeCasts_S4x2048x1024_S8192x1024) (wrapped (sorted x1)))
    shapeCasts_S8192x1024_S8x1024x1024

/-- The grouped result's rows put back at the tokens' own positions, over zeros, as [4, 2048, 1024]. -/
def ungroup (x1 : (⟨S4x2048, .i32⟩ : BufTy).Contents (Elt Ideal)) (y : (⟨S8x1024x1024, .f32⟩ : BufTy).Contents (Elt Ideal)) :
    (⟨S4x2048x1024, .f32⟩ : BufTy).Contents (Elt Ideal) :=
  shapeCast S4x2048x1024
    (Host.scatter scatter_S8192x1024_S8192x1_S8192x1024_1_0_0_1 (fun _ b => b)
      (broadcastInDim S8192x1024 ![] bcast_S_S8192x1024 (constant (F := Ideal) S_ .f32 0x00000000#32))
      (wrapped (sorted x1)) (shapeCast S8192x1024 y shapeCasts_S8x1024x1024_S8192x1024))
    shapeCasts_S8192x1024_S4x2048x1024

variable (m : (ℓ : Loc nD τ sig) → Buf (Elt Ideal) ℓ) (ρ : Dev nD → PrngReg)

/-- The sorted positions, as the region finds them. -/
theorem V_sorted (c : Dev nD) : V m c main_v2 = sorted (m ((c.tc : Thread nD τ).loc main_arg1)) := by
  dsimp only [V, V0]
  simp only [hostOps0, hostOps0_1, hostOps0_2, List.flatten_cons, List.flatten_nil, List.append_nil, List.cons_append, List.nil_append]
  after_results_simp
  rfl

/-- The region's token operand is the grouped tokens. -/
theorem aX_eq (c : Dev nD) : aX m c = grouped (m ((c.tc : Thread nD τ).loc main_arg0)) (m ((c.tc : Thread nD τ).loc main_arg1)) := by
  unfold aX
  dsimp only [V, V0]
  simp only [hostOps0, hostOps0_1, hostOps0_2, List.flatten_cons, List.flatten_nil, List.append_nil, List.cons_append, List.nil_append]
  after_results_simp
  rfl

/-- The region's weight operands are the weight arguments. -/
theorem aWg_eq (c : Dev nD) : aWg m c = (m ((c.tc : Thread nD τ).loc main_arg4)) := by
  unfold aWg
  dsimp only [V, V0]
  simp only [hostOps0, hostOps0_1, hostOps0_2, List.flatten_cons, List.flatten_nil, List.append_nil, List.cons_append, List.nil_append]
  after_results_simp
  rfl

theorem aWu_eq (c : Dev nD) : aWu m c = (m ((c.tc : Thread nD τ).loc main_arg5)) := by
  unfold aWu
  dsimp only [V, V0]
  simp only [hostOps0, hostOps0_1, hostOps0_2, List.flatten_cons, List.flatten_nil, List.append_nil, List.cons_append, List.nil_append]
  after_results_simp
  rfl

theorem aWd_eq (c : Dev nD) : aWd m c = (m ((c.tc : Thread nD τ).loc main_arg6)) := by
  unfold aWd
  dsimp only [V, V0]
  simp only [hostOps0, hostOps0_1, hostOps0_2, List.flatten_cons, List.flatten_nil, List.append_nil, List.cons_append, List.nil_append]
  after_results_simp
  rfl

/-- The whole program's result as a function of its arguments. -/
def result (c : Dev nD) : Buf (Elt Ideal) ((c.tc : Thread nD τ).loc main_v25) :=
  ungroup (m ((c.tc : Thread nD τ).loc main_arg1))
    (moe (grouped (m ((c.tc : Thread nD τ).loc main_arg0)) (m ((c.tc : Thread nD τ).loc main_arg1))) (m ((c.tc : Thread nD τ).loc main_arg4)) (m ((c.tc : Thread nD τ).loc main_arg5)) (m ((c.tc : Thread nD τ).loc main_arg6)))

/-- The lines after the region leave the ungrouped specification in the result buffer. -/
theorem tail_eq (c : Dev nD) :
    Pipeline.afterTail₀ cfgs (dats m) 0 (V0 m) [hostOps1] c main_v25 = result m c := by
  have e15 : Pipeline.withArrays (cfgs 0).spec c (V0 m c) (fun w => (dats m 0 c).arrAt w (cfgs 0).N) (Proc.devRef .tc main_v15)
      = Y m c :=
    (Pipeline.withArrays_arr spec0 launch0.win.arr_inj c _ _ 4).trans (final m c)
  have e2 : Pipeline.withArrays (cfgs 0).spec c (V0 m c) (fun w => (dats m 0 c).arrAt w (cfgs 0).N) (Proc.devRef .tc main_v2)
      = sorted (m ((c.tc : Thread nD τ).loc main_arg1)) :=
    (Pipeline.withArrays_of_ne _ c (V0 m c) _ main_v2 (by exact (by decide : ∀ w, Pipeline.arrRef spec0 w ≠ main_v2))).trans (V_sorted m c)
  unfold Pipeline.afterTail₀
  simp only [hostOps1, List.flatten_cons, List.flatten_nil, List.append_nil]
  after_results_simp
  rw [e15, e2]
  unfold result Y
  rw [aX_eq, aWg_eq, aWu_eq, aWd_eq]
  rfl

/-- THE KERNEL PROGRAM'S RUN: every weakly fair execution ends with the result buffer at `result` and the arguments
    unchanged. -/
theorem run : θ_run defs (onTc (τ := τ) (main (F := Ideal))) ⟨m, fun _ => 0, ρ⟩ fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v25 (Pipeline.mem_restRefs_of main_v25 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.HostValue

end
-- ==== Proof.RefIsSpec.lean ====
/-
  The reference's grouped product is the specification.

  The reference computes, on the grouped tokens X = x[sort_idx] reshaped to [8, 1024, 1024], two batched products with
  the gate and up weights, gate · (1 / (1 + e^(-gate))) · up, and a third batched product with the down weights. Read
  entry by entry over the extended reals each batched product is a sum over its contracted axis, and
  1 / (1 + e^(-x)) is the logistic function's definition: so the reference's [8, 1024, 1024] stage is `Moe.moe` of the
  grouped tokens and the three weight arrays.
-/
import proofs.«159194_j62105227100756_1_alg».proof.Proof.Gen.ReferenceIdeal.Read
import proofs.«159194_j62105227100756_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Moe

variable (x0 : (⟨S4x2048x1024, .f32⟩ : BufTy).Contents (Elt Ideal)) (x1 : (⟨S4x2048, .i32⟩ : BufTy).Contents (Elt Ideal))
  (x4 x5 : (⟨S8x1024x4096, .f32⟩ : BufTy).Contents (Elt Ideal)) (x6 : (⟨S8x4096x1024, .f32⟩ : BufTy).Contents (Elt Ideal))

/-- The gate product at (e, g, k) is Σ_h X[e,g,h] · Wg[e,h,k]. -/
theorem gate_eq (e : Fin 8) (g : Fin 1024) (k : Fin 4096) :
    val_main_v11 (F := Ideal) x0 x1 x4 (ix3 e g k) = proj (val_main_v10 (F := Ideal) x0 x1) x4 e g k := by
  rw [val_main_v11_apply]
  unfold proj
  refine Finset.sum_congr rfl fun h _ => ?_
  have el : lidx_main_v11 (ix3 e g k) h = ix3 e g h :=
    funext fun a => Fin.ext (by match a with | ⟨0, _⟩ => rfl | ⟨1, _⟩ => rfl | ⟨2, _⟩ => rfl)
  have er : ridx_main_v11 (ix3 e g k) h = ix3 e h k :=
    funext fun a => Fin.ext (by match a with | ⟨0, _⟩ => rfl | ⟨1, _⟩ => rfl | ⟨2, _⟩ => rfl)
  rw [el, er]

/-- The up product likewise. -/
theorem up_eq (e : Fin 8) (g : Fin 1024) (k : Fin 4096) :
    val_main_v12 (F := Ideal) x0 x1 x5 (ix3 e g k) = proj (val_main_v10 (F := Ideal) x0 x1) x5 e g k := by
  rw [val_main_v12_apply]
  unfold proj
  refine Finset.sum_congr rfl fun h _ => ?_
  have el : lidx_main_v12 (ix3 e g k) h = ix3 e g h :=
    funext fun a => Fin.ext (by match a with | ⟨0, _⟩ => rfl | ⟨1, _⟩ => rfl | ⟨2, _⟩ => rfl)
  have er : ridx_main_v12 (ix3 e g k) h = ix3 e h k :=
    funext fun a => Fin.ext (by match a with | ⟨0, _⟩ => rfl | ⟨1, _⟩ => rfl | ⟨2, _⟩ => rfl)
  rw [el, er]

/-- gate · (1 / (1 + e^(-gate))) · up is the gated activation: the quotient is the logistic function. -/
theorem hid_eq (e : Fin 8) (g : Fin 1024) (k : Fin 4096) :
    val_main_v14 (F := Ideal) x0 x1 x4 x5 (ix3 e g k) = hid (val_main_v10 (F := Ideal) x0 x1) x4 x5 e g k := by
  rw [val_main_v14_apply, val_main_v13_apply, val_main_call1_v5_apply, val_main_call1_v4_apply, val_main_call1_cst_0_apply,
    val_main_call1_v3_apply, val_main_call1_v2_apply, val_main_call1_cst_apply, val_main_call1_v1_apply,
    val_main_call1_v0_apply, gate_eq, up_eq]
  unfold hid Ideal.logistic
  simp only [Ideal.mulf_def, Ideal.hostDivf_def, Ideal.addf_def, Ideal.hostUnary_exp_def, Ideal.hostNegf_def,
    Ideal.negf_def, Ideal.ofBits_def, one_f32]

/-- The reference's [8, 1024, 1024] stage is the specification of the grouped tokens and the weights. -/
theorem stage_eq :
    val_main_v15 (F := Ideal) x0 x1 x4 x5 x6 = moe (val_main_v10 (F := Ideal) x0 x1) x4 x5 x6 := by
  funext i
  obtain ⟨e, g, h, rfl⟩ : ∃ (e : Fin 8) (g : Fin 1024) (h : Fin 1024), i = ix3 e g h := ⟨i 0, i 1, i 2, eq_ix3 i⟩
  rw [val_main_v15_apply, moe_apply]
  refine Finset.sum_congr rfl fun k _ => ?_
  have el : lidx_main_v15 (ix3 e g h) k = ix3 e g k :=
    funext fun a => Fin.ext (by match a with | ⟨0, _⟩ => rfl | ⟨1, _⟩ => rfl | ⟨2, _⟩ => rfl)
  have er : ridx_main_v15 (ix3 e g h) k = ix3 e k h :=
    funext fun a => Fin.ext (by match a with | ⟨0, _⟩ => rfl | ⟨1, _⟩ => rfl | ⟨2, _⟩ => rfl)
  rw [el, er, hid_eq]

end Cert.ReferenceIdeal.RefValue

end
-- ==== Proof.RefResult.lean ====
/-
  The reference's result, in the same words as the kernel program's.

  The reference groups the tokens by the same sort and gather, forms the specification of the grouped tokens and the
  weights (RefIsSpec), and puts the rows back by the same scatter. Its operations around the grouped product are, term
  for term, the kernel program's: the same shapes, the same comparator, the same gather and scatter dimension numbers.
  So its result is `ungroup` of the specification of `grouped`, as the kernel program's is.
-/
import proofs.«159194_j62105227100756_1_alg».proof.Proof.RefIsSpec
import proofs.«159194_j62105227100756_1_alg».proof.Proof.KernelHost

noncomputable section

namespace Cert.ReferenceIdeal.RefValue

open Cert.ReferenceIdeal Cert.ReferenceIdeal.Gen Cert.ReferenceIdeal.Read
open Idealize.ShloMosaic Idealize.ShloMosaic.TcCoe Idealize.SL.Sem Cert.Moe

variable (x0 : (⟨S4x2048x1024, .f32⟩ : BufTy).Contents (Elt Ideal)) (x1 : (⟨S4x2048, .i32⟩ : BufTy).Contents (Elt Ideal))
  (x4 x5 : (⟨S8x1024x4096, .f32⟩ : BufTy).Contents (Elt Ideal)) (x6 : (⟨S8x4096x1024, .f32⟩ : BufTy).Contents (Elt Ideal))

/-- The reference's grouped tokens are the kernel program's. -/
theorem grouped_eq : val_main_v10 (F := Ideal) x0 x1 = Cert.KernelIdeal.HostValue.grouped x0 x1 := rfl

/-- The reference's last lines are the kernel program's, applied to the reference's grouped product. -/
theorem ungroup_eq :
    val_main_v25 (F := Ideal) x0 x1 x4 x5 x6
      = Cert.KernelIdeal.HostValue.ungroup x1 (val_main_v15 (F := Ideal) x0 x1 x4 x5 x6) := rfl

/-- The reference's result as the same function of the arguments as the kernel program's. -/
theorem result_eq :
    val_main_v25 (F := Ideal) x0 x1 x4 x5 x6
      = Cert.KernelIdeal.HostValue.ungroup x1 (moe (Cert.KernelIdeal.HostValue.grouped x0 x1) x4 x5 x6) := by
  rw [ungroup_eq, stage_eq, grouped_eq]

end Cert.ReferenceIdeal.RefValue

end
-- ==== Proof.lean ====
/-
  A sparse mixture-of-experts block: tokens grouped by expert (a stable argsort and a gather), a gated MLP per expert,
  and the rows put back in place (a scatter). The kernel program runs the gated MLP as one grid of 8 experts × 4 row
  blocks × 4 slabs of the hidden width, accumulating the down projection slab by slab; the reference runs it as three
  batched products. Over the extended reals both are

      Y[e,g,h] = Σ_k ((gate · σ(gate)) · up)[e,g,k] · Wd[e,k,h],   gate = X · Wg,   up = X · Wu,

  because a change of float format is the identity there, σ(x) is 1 / (1 + e^(-x)) by definition, and a sum taken slab
  after slab from zero is the whole sum (addition of extended reals is commutative and associative: the inputs'
  finiteness is not used). The sort, the gather and the scatter are the same operations in both programs and are never
  opened.

  Spec         the specification and the slab-wise sum
  RefIsSpec    the reference's batched products are the specification
  KernelBlock  one grid step, entry by entry
  KernelPieces what a step leaves in the accumulator and the output block
  KernelAccum  the accumulator over the grid, by induction on the step
  KernelRegion the region's result array
  KernelHost   the program around the region; the kernel program's run
  RefResult    the reference's result in the kernel program's words
-/
import proofs.«159194_j62105227100756_1_alg».proof.Defs
import proofs.«159194_j62105227100756_1_alg».proof.Proof.Gen.Kernel
import proofs.«159194_j62105227100756_1_alg».proof.Proof.Gen.Kernel.Skeleton
import proofs.«159194_j62105227100756_1_alg».proof.Proof.Gen.Kernel.Launch
import proofs.«159194_j62105227100756_1_alg».proof.Proof.Gen.Kernel.Points
import proofs.«159194_j62105227100756_1_alg».proof.Proof.Gen.Kernel.Frame
import proofs.«159194_j62105227100756_1_alg».proof.Proof.Gen.KernelIdeal
import proofs.«159194_j62105227100756_1_alg».proof.Proof.Gen.KernelIdeal.Skeleton
import proofs.«159194_j62105227100756_1_alg».proof.Proof.Gen.KernelIdeal.Launch
import proofs.«159194_j62105227100756_1_alg».proof.Proof.Gen.KernelIdeal.Points
import proofs.«159194_j62105227100756_1_alg».proof.Proof.Gen.KernelIdeal.Frame
import proofs.«159194_j62105227100756_1_alg».proof.Proof.Gen.ReferenceIdeal
import proofs.«159194_j62105227100756_1_alg».proof.Proof.Gen.Pre_finite_inputs
import proofs.«159194_j62105227100756_1_alg».proof.Proof.Gen.ReferenceIdeal.Run
import proofs.«159194_j62105227100756_1_alg».proof.Proof.Gen.ReferenceIdeal.Read
import proofs.«159194_j62105227100756_1_alg».proof.Proof.KernelHost
import proofs.«159194_j62105227100756_1_alg».proof.Proof.RefResult
import Idealize.ShloMosaic.Adequacy
import Idealize.ShloMosaic.Init

noncomputable section

namespace Cert.Proof

open Idealize.ShloMosaic Idealize.SL.Sem

/-- The three programs run and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the rows of the specification of the grouped tokens put back in place. -/
theorem algebraic : Cert.algebraic_KernelIdeal_ReferenceIdeal := by
  intro m ρ m' ρ' _ hagree
  refine ⟨fun c => Cert.KernelIdeal.HostValue.result m c, Cert.KernelIdeal.HostValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.result_eq,
    (hagree c).1, (hagree c).2.1, (hagree c).2.2.2.2.1, (hagree c).2.2.2.2.2.1, (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
